-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x1x64 : Shape := ⟨3, ![100000, 1, 64]⟩
abbrev S1600000x1x64 : Shape := ⟨3, ![1600000, 1, 64]⟩
abbrev S1600000 : Shape := ⟨1, ![1600000]⟩
abbrev S128x128 : Shape := ⟨2, ![128, 128]⟩
abbrev S128 : Shape := ⟨1, ![128]⟩
abbrev S_ : Shape := ⟨0, ![]⟩

class Facts : Prop where
  bcast_S_S100000x1x64 : S_.BroadcastsInDim S100000x1x64 (![] : Fin 0 → Fin S100000x1x64.rank)
  reducesTo_S100000x1x64_S_d0_1_2 : S100000x1x64.ReducesTo [0, 1, 2] S_
  h_S_ : 0 < S_.numel
  bcast_S_S1600000x1x64 : S_.BroadcastsInDim S1600000x1x64 (![] : Fin 0 → Fin S1600000x1x64.rank)
  reducesTo_S1600000x1x64_S_d0_1_2 : S1600000x1x64.ReducesTo [0, 1, 2] S_
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x1x64 .f32) (main_arg1 : FVec F S1600000x1x64 .f32) (main_arg2 : FVec F S1600000 .f32) (main_arg3 : IVec S1600000 32) (main_arg4 : FVec F S128x128 .f32) (main_arg5 : FVec F S128 .f32) : IVec S_ 1 :=
  let main_v0 : FVec F S100000x1x64 .f32 := Host.absf main_arg0
  let main_cst : FVec F S_ .f32 := constant S_ .f32 0x7F800000#32
  let main_v1 : FVec F S100000x1x64 .f32 := broadcastInDim S100000x1x64 ![] bcast_S_S100000x1x64 main_cst
  let main_v2 : IVec S100000x1x64 1 := cmpf .olt main_v0 main_v1
  let main_c : IVec S_ 1 := constantI S_ 1 1#1
  let main_v3 : IVec S_ 1 := (fun x v => Host.reduce IntOp.andi x v reducesTo_S100000x1x64_S_d0_1_2 h_S_) main_v2 main_c
  let main_v4 : FVec F S1600000x1x64 .f32 := Host.absf main_arg1
  let main_cst_0 : FVec F S_ .f32 := constant S_ .f32 0x7F800000#32
  let main_v5 : FVec F S1600000x1x64 .f32 := broadcastInDim S1600000x1x64 ![] bcast_S_S1600000x1x64 main_cst_0
  let main_v6 : IVec S1600000x1x64 1 := cmpf .olt main_v4 main_v5
  let main_c_1 : IVec S_ 1 := constantI S_ 1 1#1
  let main_v7 : IVec S_ 1 := (fun x v => Host.reduce IntOp.andi x v reducesTo_S1600000x1x64_S_d0_1_2 h_S_) main_v6 main_c_1
  let main_v8 : IVec S_ 1 := andi main_v3 main_v7
  let main_v9 : FVec F S1600000 .f32 := Host.absf main_arg2
  let main_cst_2 : FVec F S_ .f32 := constant S_ .f32 0x7F800000#32
  let main_v10 : FVec F S1600000 .f32 := broadcastInDim S1600000 ![] bcast_S_S1600000 main_cst_2
  let main_v11 : IVec S1600000 1 := cmpf .olt main_v9 main_v10
  let main_c_3 : IVec S_ 1 := constantI S_ 1 1#1
  let main_v12 : IVec S_ 1 := (fun x v => Host.reduce IntOp.andi x v reducesTo_S1600000_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S100000x1x64 : Shape := ⟨3, ![100000, 1, 64]⟩
abbrev S1600000x1x64 : Shape := ⟨3, ![1600000, 1, 64]⟩
abbrev S1600000 : Shape := ⟨1, ![1600000]⟩
abbrev S128x128 : Shape := ⟨2, ![128, 128]⟩
abbrev S128 : Shape := ⟨1, ![128]⟩
abbrev S100000x64 : Shape := ⟨2, ![100000, 64]⟩
abbrev S1600000x64 : Shape := ⟨2, ![1600000, 64]⟩
abbrev S1600000x1 : Shape := ⟨2, ![1600000, 1]⟩
abbrev S_ : Shape := ⟨0, ![]⟩
abbrev S1600000x65 : Shape := ⟨2, ![1600000, 65]⟩
abbrev S100000x65 : Shape := ⟨2, ![100000, 65]⟩
abbrev S100000x128 : Shape := ⟨2, ![100000, 128]⟩
abbrev S5000x64 : Shape := ⟨2, ![5000, 64]⟩
abbrev S5000x65 : Shape := ⟨2, ![5000, 65]⟩
abbrev S5000x128 : Shape := ⟨2, ![5000, 128]⟩
abbrev S5000x1 : Shape := ⟨2, ![5000, 1]⟩
abbrev S1x128 : Shape := ⟨2, ![1, 128]⟩
abbrev S100000x1x128 : Shape := ⟨3, ![100000, 1, 128]⟩

abbrev nBuf : Space → Nat
  | .hbm => 21
  | .vmem => 8
  | .smem => 0
  | _ => 0

abbrev bufTy : (tb : Table) → Fin (tcTables nBuf tb) → BufTy
  | .hbm, ⟨0, _⟩ => ⟨S100000x1x64, .f32⟩
  | .hbm, ⟨1, _⟩ => ⟨S1600000x1x64, .f32⟩
  | .hbm, ⟨2, _⟩ => ⟨S1600000, .f32⟩
  | .hbm, ⟨3, _⟩ => ⟨S1600000, .i32⟩
  | .hbm, ⟨4, _⟩ => ⟨S128x128, .f32⟩
  | .hbm, ⟨5, _⟩ => ⟨S128, .f32⟩
  | .hbm, ⟨6, _⟩ => ⟨S100000x64, .f32⟩
  | .hbm, ⟨7, _⟩ => ⟨S1600000x64, .f32⟩
  | .hbm, ⟨8, _⟩ => ⟨S1600000x1, .f32⟩
  | .hbm, ⟨9, _⟩ => ⟨S1600000x64, .f32⟩
  | .hbm, ⟨10, _⟩ => ⟨S1600000x64, .f32⟩
  | .hbm, ⟨11, _⟩ => ⟨S_, .f32⟩
  | .hbm, ⟨12, _⟩ => ⟨S1600000x1, .f32⟩
  | .hbm, ⟨13, _⟩ => ⟨S1600000x65, .f32⟩
  | .hbm, ⟨14, _⟩ => ⟨S_, .f32⟩
  | .hbm, ⟨15, _⟩ => ⟨S100000x65, .f32⟩
  | .hbm, ⟨16, _⟩ => ⟨S1600000x1, .i32⟩
  | .hbm, ⟨17, _⟩ => ⟨S100000x65, .f32⟩
  | .hbm, ⟨18, _⟩ => ⟨S128x128, .f32⟩
  | .hbm, ⟨19, _⟩ => ⟨S100000x128, .f32⟩
  | .hbm, ⟨20, _⟩ => ⟨S100000x1x128, .f32⟩
  | .local _ .vmem, ⟨0, _⟩ => ⟨S5000x64, .f32⟩
  | .local _ .vmem, ⟨1, _⟩ => ⟨S5000x64, .f32⟩
  | .local _ .vmem, ⟨2, _⟩ => ⟨S5000x65, .f32⟩
  | .local _ .vmem, ⟨3, _⟩ => ⟨S5000x65, .f32⟩
  | .local _ .vmem, ⟨4, _⟩ => ⟨S128x128, .f32⟩
  | .local _ .vmem, ⟨5, _⟩ => ⟨S128, .f32⟩
  | .local _ .vmem, ⟨6, _⟩ => ⟨S5000x128, .f32⟩
  | .local _ .vmem, ⟨7, _⟩ => ⟨S5000x128, .f32⟩
  | _, _ => ⟨S100000x1x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x65 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S100000x1x64_S100000x64 : S100000x1x64.ShapeCasts S100000x64
  shapeCasts_S1600000x1x64_S1600000x64 : S1600000x1x64.ShapeCasts S1600000x64
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S1600000x1 : S_.BroadcastsInDim S1600000x1 (![] : Fin 0 → Fin S1600000x1.rank)
  concatenates_S1600000x64_S1600000x1_S1600000x65_d1 : Shape.Concatenates [S1600000x64, S1600000x1] S1600000x65 1
  bcast_S_S100000x65 : S_.BroadcastsInDim S100000x65 (![] : Fin 0 → Fin S100000x65.rank)
  transposes_S128x128_S128x128_1_0 : S128x128.Transposes [1, 0] S128x128
  inb_S5000x65_S5000x65_0_0 : ∀ a, (![0, 0] : Fin 2 → Nat) a + S5000x65.size a ≤ S5000x65.size a
  h_S5000x65 : 0 < S5000x65.numel
  shapeCasts_S5000x65_S5000x65 : S5000x65.ShapeCasts S5000x65
  slices_S5000x65_o0_0_S5000x64 : S5000x65.Slices ![0, 0] S5000x64
  slices_S5000x65_o0_64_S5000x1 : S5000x65.Slices ![0, 64] S5000x1
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  concatenates_S5000x64_S5000x64_S5000x128_d1 : Shape.Concatenates [S5000x64, S5000x64] S5000x128 1
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  shapeCasts_S100000x128_S100000x1x128 : S100000x128.ShapeCasts S100000x1x128
  scatter_S100000x65_S1600000x1_S1600000x65_1_0_0_1_wf : ScatterDims.WF S100000x65 S1600000x1 S1600000x65 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x65.size a ≤ S100000x65.size a
  hwx0_1 : ∀ i : grid0.Coords, EltTy.bits .f32 = 32 ∨ (Rect.block (s := S100000x65) S5000x65.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S100000x128.size a
  hwx0_4 : ∀ i : grid0.Coords, EltTy.bits .f32 = 32 ∨ (Rect.block (s := S100000x128) S5000x128.size (cc0_transform_4 i) (hinb0_4 i)).WholeWords (EltTy.packing .f32)

variable [Facts₀]

def scatter_S100000x65_S1600000x1_S1600000x65_1_0_0_1 : ScatterDims S100000x65 S1600000x1 S1600000x65 where
  updateWindowDims := [1]
  insertedWindowDims := [0]
  scatterDimsToOperandDims := [0]
  indexVectorDim := 1
  wf := scatter_S100000x65_S1600000x1_S1600000x65_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S5000x65.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S100000x1x64 : Shape := ⟨3, ![100000, 1, 64]⟩
abbrev S1600000x1x64 : Shape := ⟨3, ![1600000, 1, 64]⟩
abbrev S1600000 : Shape := ⟨1, ![1600000]⟩
abbrev S128x128 : Shape := ⟨2, ![128, 128]⟩
abbrev S128 : Shape := ⟨1, ![128]⟩
abbrev S1600000x1x1 : Shape := ⟨3, ![1600000, 1, 1]⟩
abbrev S_ : Shape := ⟨0, ![]⟩
abbrev S1600000x1 : Shape := ⟨2, ![1600000, 1]⟩
abbrev S100000 : Shape := ⟨1, ![100000]⟩
abbrev S100000x1x1 : Shape := ⟨3, ![100000, 1, 1]⟩
abbrev S100000x1x128 : Shape := ⟨3, ![100000, 1, 128]⟩
abbrev S1x1x128 : Shape := ⟨3, ![1, 1, 128]⟩

abbrev nBuf : Space → Nat
  | .hbm => 33
  | .vmem => 0
  | .smem => 0
  | _ => 0

abbrev bufTy : (tb : Table) → Fin (tcTables nBuf tb) → BufTy
  | .hbm, ⟨0, _⟩ => ⟨S100000x1x64, .f32⟩
  | .hbm, ⟨1, _⟩ => ⟨S1600000x1x64, .f32⟩
  | .hbm, ⟨2, _⟩ => ⟨S1600000, .f32⟩
  | .hbm, ⟨3, _⟩ => ⟨S1600000, .i32⟩
  | .hbm, ⟨4, _⟩ => ⟨S128x128, .f32⟩
  | .hbm, ⟨5, _⟩ => ⟨S128, .f32⟩
  | .hbm, ⟨6, _⟩ => ⟨S1600000x1x1, .f32⟩
  | .hbm, ⟨7, _⟩ => ⟨S1600000x1x64, .f32⟩
  | .hbm, ⟨8, _⟩ => ⟨S1600000x1x64, .f32⟩
  | .hbm, ⟨9, _⟩ => ⟨S_, .f32⟩
  | .hbm, ⟨10, _⟩ => ⟨S100000x1x64, .f32⟩
  | .hbm, ⟨11, _⟩ => ⟨S1600000x1, .i32⟩
  | .hbm, ⟨12, _⟩ => ⟨S100000x1x64, .f32⟩
  | .hbm, ⟨13, _⟩ => ⟨S_, .f32⟩
  | .hbm, ⟨14, _⟩ => ⟨S1600000, .f32⟩
  | .hbm, ⟨15, _⟩ => ⟨S_, .f32⟩
  | .hbm, ⟨16, _⟩ => ⟨S100000, .f32⟩
  | .hbm, ⟨17, _⟩ => ⟨S1600000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000x1x1, .f32⟩
  | .hbm, ⟨23, _⟩ => ⟨S100000x1x64, .f32⟩
  | .hbm, ⟨24, _⟩ => ⟨S100000x1x64, .f32⟩
  | .hbm, ⟨25, _⟩ => ⟨S100000x1x128, .f32⟩
  | .hbm, ⟨26, _⟩ => ⟨S100000x1x128, .f32⟩
  | .hbm, ⟨27, _⟩ => ⟨S1x1x128, .f32⟩
  | .hbm, ⟨28, _⟩ => ⟨S100000x1x128, .f32⟩
  | .hbm, ⟨29, _⟩ => ⟨S100000x1x128, .f32⟩
  | .hbm, ⟨30, _⟩ => ⟨S_, .f32⟩
  | .hbm, ⟨31, _⟩ => ⟨S100000x1x128, .f32⟩
  | .hbm, ⟨32, _⟩ => ⟨S100000x1x128, .f32⟩
  | _, _ => ⟨S100000x1x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_call0_cst : Ref sig .tc := ⟨.hbm, 30, rfl⟩
abbrev main_call0_v0 : Ref sig .tc := ⟨.hbm, 31, rfl⟩
abbrev main_v20 : Ref sig .tc := ⟨.hbm, 32, rfl⟩

abbrev nD : Nat := 1
abbrev τ : Topo := Topo.v7x

variable {F : FTy → Type} [FloatOps F]

class Facts₀ : Prop where
  bcast_S1600000_S1600000x1x1_0 : S1600000.BroadcastsInDim S1600000x1x1 (![0] : Fin 1 → Fin S1600000x1x1.rank)
  bcast_S1600000x1x1_S1600000x1x64_0_1_2 : S1600000x1x1.BroadcastsInDim S1600000x1x64 (![0, 1, 2] : Fin 3 → Fin S1600000x1x64.rank)
  bcast_S_S100000x1x64 : S_.BroadcastsInDim S100000x1x64 (![] : Fin 0 → Fin S100000x1x64.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S_S100000 : S_.BroadcastsInDim S100000 (![] : Fin 0 → Fin S100000.rank)
  bcast_S100000_S100000x1x1_0 : S100000.BroadcastsInDim S100000x1x1 (![0] : Fin 1 → Fin S100000x1x1.rank)
  bcast_S100000x1x1_S100000x1x64_0_1_2 : S100000x1x1.BroadcastsInDim S100000x1x64 (![0, 1, 2] : Fin 3 → Fin S100000x1x64.rank)
  concatenates_S100000x1x64_S100000x1x64_S100000x1x128_d2 : Shape.Concatenates [S100000x1x64, S100000x1x64] S100000x1x128 2
  bcast_S128_S1x1x128_2 : S128.BroadcastsInDim S1x1x128 (![2] : Fin 1 → Fin S1x1x128.rank)
  bcast_S1x1x128_S100000x1x128_0_1_2 : S1x1x128.BroadcastsInDim S100000x1x128 (![0, 1, 2] : Fin 3 → Fin S100000x1x128.rank)
  bcast_S_S100000x1x128 : S_.BroadcastsInDim S100000x1x128 (![] : Fin 0 → Fin S100000x1x128.rank)
  scatter_S100000x1x64_S1600000x1_S1600000x1x64_12_0_0_1_wf : ScatterDims.WF S100000x1x64 S1600000x1 S1600000x1x64 [1, 2] [0] [0] 1
  scatter_S100000_S1600000x1_S1600000_n_0_0_1_wf : ScatterDims.WF S100000 S1600000x1 S1600000 [] [0] [0] 1
  dot_S100000x1x128_S128x128_S100000x1x128_2_1_01_0_n_n_wf : DotDims.WF S100000x1x128 S128x128 S100000x1x128 [2] [1] [0, 1] [0] [] []

variable [Facts₀]

def scatter_S100000x1x64_S1600000x1_S1600000x1x64_12_0_0_1 : ScatterDims S100000x1x64 S1600000x1 S1600000x1x64 where
  updateWindowDims := [1, 2]
  insertedWindowDims := [0]
  scatterDimsToOperandDims := [0]
  indexVectorDim := 1
  wf := scatter_S100000x1x64_S1600000x1_S1600000x1x64_12_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x1x128_S128x128_S100000x1x128_2_1_01_0_n_n : DotDims S100000x1x128 S128x128 S100000x1x128 where
  lhsContracting := [2]
  rhsContracting := [1]
  lhsNonContracting := [0, 1]
  rhsNonContracting := [0]
  lhsBatch := []
  rhsBatch := []
  wf := dot_S100000x1x128_S128x128_S100000x1x128_2_1_01_0_n_n_wf

class Facts : Prop extends Facts₀ where

variable [Facts]
-- ==== Proof.Spec.lean ====
/-
  The function both programs compute, written once over the argument arrays.

  A graph has 100000 nodes and 1600000 edges; edge e points at node dst e, carries 64 features ef e and a weight
  nw e.  For a node n, the edges whose destination word, read as a signed integer, is n are its incoming
  edges; an edge whose destination is no node contributes to no node.  The node's aggregate is the sum over its
  incoming edges of the weighted edge features, its degree the sum of a one per incoming edge; the neighbour
  feature is the aggregate divided by the larger of the degree and one.  The node's own 64 features followed by
  its 64 neighbour features are multiplied by the 128 x 128 matrix W (row o of W against the 128 features), the
  bias is added and negative values are replaced by zero.

  Both sums start from the literal zero word and the count adds the literal one word; they are kept as words.
-/
import Idealize.ShloMosaic.PureOps.Ideal
import Idealize.ShloMosaic.Lib.ValueIdx

noncomputable section

namespace Cert.NeighbourMean

open Idealize.ShloMosaic Idealize.ShloMosaic.ValueIdx

/-- The zero and the one of the programs, as the words they print. -/
abbrev zeroW : EReal := Ideal.ofBits .f32 0x00000000#32
abbrev oneW : EReal := Ideal.ofBits .f32 0x3F800000#32

/-- The incoming edges of node `n`: those whose destination word is `n` as a signed integer. -/
def inEdges (dst : (⟨1, ![1600000]⟩ : Shape).Idx → BitVec 32) (n : Fin 100000) : Finset (Fin 1600000) :=
  Finset.univ.filter fun e : Fin 1600000 => (dst (ix1 e)).toInt = (n.val : ℤ)

/-- Feature `c` of node `n`'s aggregate: zero plus the weighted features of its incoming edges. -/
def aggregate (ef : (⟨3, ![1600000, 1, 64]⟩ : Shape).Idx → EReal) (nw : (⟨1, ![1600000]⟩ : Shape).Idx → EReal)
    (dst : (⟨1, ![1600000]⟩ : Shape).Idx → BitVec 32) (n : Fin 100000) (c : Fin 64) : EReal :=
  zeroW + ∑ e ∈ inEdges dst n, nw (ix1 e) * ef (ix3 e (0 : Fin 1) c)

/-- Node `n`'s degree: zero plus a one per incoming edge. -/
def degree (dst : (⟨1, ![1600000]⟩ : Shape).Idx → BitVec 32) (n : Fin 100000) : EReal :=
  zeroW + ∑ _e ∈ inEdges dst n, oneW

/-- Feature `c` of the mean over node `n`'s incoming edges (the aggregate itself at an isolated node). -/
def neighbour (ef : (⟨3, ![1600000, 1, 64]⟩ : Shape).Idx → EReal) (nw : (⟨1, ![1600000]⟩ : Shape).Idx → EReal)
    (dst : (⟨1, ![1600000]⟩ : Shape).Idx → BitVec 32) (n : Fin 100000) (c : Fin 64) : EReal :=
  Ideal.div (aggregate ef nw dst n c) (max (degree dst n) oneW)

/-- The 128 features of node `n` the linear layer reads: its own 64, then its 64 neighbour features. -/
def feature (nf : (⟨3, ![100000, 1, 64]⟩ : Shape).Idx → EReal) (ef : (⟨3, ![1600000, 1, 64]⟩ : Shape).Idx → EReal)
    (nw : (⟨1, ![1600000]⟩ : Shape).Idx → EReal) (dst : (⟨1, ![1600000]⟩ : Shape).Idx → BitVec 32)
    (n : Fin 100000) (k : Fin 128) : EReal :=
  if h : k.val < 64 then nf (ix3 n (0 : Fin 1) (⟨k.val, h⟩ : Fin 64))
  else neighbour ef nw dst n (⟨k.val - 64, by have := k.isLt; omega⟩ : Fin 64)

/-- Output `o` of node `n`: row `o` of `W` against the node's features, plus the bias, negatives replaced by zero. -/
def output (nf : (⟨3, ![100000, 1, 64]⟩ : Shape).Idx → EReal) (ef : (⟨3, ![1600000, 1, 64]⟩ : Shape).Idx → EReal)
    (nw : (⟨1, ![1600000]⟩ : Shape).Idx → EReal) (dst : (⟨1, ![1600000]⟩ : Shape).Idx → BitVec 32)
    (W : (⟨2, ![128, 128]⟩ : Shape).Idx → EReal) (b : (⟨1, ![128]⟩ : Shape).Idx → EReal)
    (n : Fin 100000) (o : Fin 128) : EReal :=
  max ((∑ k : Fin 128, feature nf ef nw dst n k * W (ix2 o k)) + b (ix1 o)) zeroW

/-- The result array, of shape [100000, 1, 128]. -/
def result (nf : (⟨3, ![100000, 1, 64]⟩ : Shape).Idx → EReal) (ef : (⟨3, ![1600000, 1, 64]⟩ : Shape).Idx → EReal)
    (nw : (⟨1, ![1600000]⟩ : Shape).Idx → EReal) (dst : (⟨1, ![1600000]⟩ : Shape).Idx → BitVec 32)
    (W : (⟨2, ![128, 128]⟩ : Shape).Idx → EReal) (b : (⟨1, ![128]⟩ : Shape).Idx → EReal) :
    (⟨3, ![100000, 1, 128]⟩ : Shape).Idx → EReal :=
  fun i => output nf ef nw dst W b ⟨(i 0).val, (i 0).isLt⟩ ⟨(i 2).val, (i 2).isLt⟩

/-- The same values as a matrix [100000, 128], the unit axis dropped. -/
def resultMatrix (nf : (⟨3, ![100000, 1, 64]⟩ : Shape).Idx → EReal) (ef : (⟨3, ![1600000, 1, 64]⟩ : Shape).Idx → EReal)
    (nw : (⟨1, ![1600000]⟩ : Shape).Idx → EReal) (dst : (⟨1, ![1600000]⟩ : Shape).Idx → BitVec 32)
    (W : (⟨2, ![128, 128]⟩ : Shape).Idx → EReal) (b : (⟨1, ![128]⟩ : Shape).Idx → EReal) :
    (⟨2, ![100000, 128]⟩ : Shape).Idx → EReal :=
  fun i => output nf ef nw dst W b ⟨(i 0).val, (i 0).isLt⟩ ⟨(i 1).val, (i 1).isLt⟩

end Cert.NeighbourMean

end
-- ==== Proof.LibScatterRows.lean ====
/-
  A host scatter whose combiner is float addition, read at one element, for the dimension numbers of a segment
  sum over rows: scatter indices of shape [E, 1] (one start coordinate per update row, on operand axis 0), the
  operand's axis 0 inserted, every other axis a window axis carried over unchanged.  At the
  ideal instance the result element (n, rest) is the operand's element plus the sum, over the update rows
  e whose start index is n, of the update element (e, rest).  Three ranks are stated: a vector [N],
  a matrix [N, C] and a rank-3 array [N, 1, C].
-/
import Idealize.ShloMosaic.PureOps.Ideal
import Idealize.ShloMosaic.Lib.ValueIdx

noncomputable section

namespace Cert.ScatterRows

open Idealize.ShloMosaic Idealize.ShloMosaic.ValueIdx

/-- An update index lands on the operand index `i` exactly when, on every operand axis, its start
    coordinate plus its window coordinate is `i`'s coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  split
  · rename_i h
    rw [Option.some.injEq]
    constructor
    · intro hf a
      have h2 := h a
      rw [← hf]
      simp only
      rw [Int.toNat_of_nonneg h2.1]
    · intro hf
      funext a
      apply Fin.ext
      simp only
      rw [hf a]
      exact Int.toNat_natCast _
  · rename_i h
    constructor
    · intro hf
      cases hf
    · intro hf
      exfalso
      apply h
      intro a
      rw [hf a]
      exact ⟨Int.natCast_nonneg _, by exact_mod_cast (i a).isLt⟩

section Rank2
variable {N E C w : Nat}

/-- Matrix case: the scatter-indices position read for an update index is `(row, 0)`. -/
theorem siIdx2 (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hiv : d.indexVectorDim = 1) (j : (⟨2, ![E, C]⟩ : Shape).Idx) (h0 : 0 < d.scatterDimsToOperandDims.length) :
    d.siIdx j ⟨0, h0⟩ = ix2 (j 0) 0 := by
  obtain ⟨uw, iw, sd, iv, wf⟩ := d
  simp only at huw hiw hsd hiv
  subst huw hiw hsd hiv
  funext b
  match b with
  | ⟨0, _⟩ => rfl
  | ⟨1, _⟩ => rfl

/-- Matrix case: an update index lands on `(n, c)` exactly when its row's start index is `n` and its column is `c`. -/
theorem resultIdx2_iff (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hiv : d.indexVectorDim = 1) (j : (⟨2, ![E, C]⟩ : Shape).Idx) (idx : IVec ⟨2, ![E, 1]⟩ w)
    (n : Fin N) (c : Fin C) :
    d.resultIdx? j idx = some (ix2 n c) ↔ (idx (ix2 (j 0) 0)).toInt = (n.val : ℤ) ∧ (j 1).val = c.val := by
  rw [resultIdx?_eq_some_iff, Fin.forall_fin_two]
  have hs := siIdx2 d huw hiw hsd hiv j
  obtain ⟨uw, iw, sd, iv, wf⟩ := d
  simp only at huw hiw hsd hiv
  subst huw hiw hsd hiv
  have s0 : ScatterDims.start ⟨[1], [0], [0], 1, wf⟩ j idx 0 = (idx (ix2 (j 0) 0)).toInt := by
    unfold ScatterDims.start
    rw [dif_pos (show _ from List.mem_singleton.2 rfl)]
    exact congrArg (fun t => (idx t).toInt) (hs _)
  have s1 : ScatterDims.start ⟨[1], [0], [0], 1, wf⟩ j idx 1 = 0 := by
    unfold ScatterDims.start
    rw [dif_neg (by simp)]
  have w0 : ScatterDims.window ⟨[1], [0], [0], 1, wf⟩ j 0 = 0 := by
    unfold ScatterDims.window
    rw [dif_neg (by simp [ScatterDims.sKept, Shape.kept])]
  have w1 : ScatterDims.window ⟨[1], [0], [0], 1, wf⟩ j 1 = (j 1).val := by
    unfold ScatterDims.window
    rw [dif_pos (by simp [ScatterDims.sKept, Shape.kept])]
    rfl
  rw [s0, s1, w0, w1]
  show (idx (ix2 (j 0) 0)).toInt + ((0 : ℕ) : ℤ) = (n.val : ℤ) ∧ (0 : ℤ) + (((j 1).val : ℕ) : ℤ) = (c.val : ℤ) ↔ _
  constructor
  · rintro ⟨h1, h2⟩
    exact ⟨by omega, by omega⟩
  · rintro ⟨h1, h2⟩
    exact ⟨by omega, by omega⟩

end Rank2

section Rank1
variable {N E w : Nat}

/-- Vector case: the scatter-indices position read for an update index is `(row, 0)`. -/
theorem siIdx1 (d : ScatterDims ⟨1, ![N]⟩ ⟨2, ![E, 1]⟩ ⟨1, ![E]⟩)
    (huw : d.updateWindowDims = []) (hiw : d.insertedWindowDims = [0]) (hsd : d.scatterDimsToOperandDims = [0])
    (hiv : d.indexVectorDim = 1) (j : (⟨1, ![E]⟩ : Shape).Idx) (h0 : 0 < d.scatterDimsToOperandDims.length) :
    d.siIdx j ⟨0, h0⟩ = ix2 (j 0) 0 := by
  obtain ⟨uw, iw, sd, iv, wf⟩ := d
  simp only at huw hiw hsd hiv
  subst huw hiw hsd hiv
  funext b
  match b with
  | ⟨0, _⟩ => rfl
  | ⟨1, _⟩ => rfl

/-- Vector case: an update index lands on `n` exactly when its row's start index is `n`. -/
theorem resultIdx1_iff (d : ScatterDims ⟨1, ![N]⟩ ⟨2, ![E, 1]⟩ ⟨1, ![E]⟩)
    (huw : d.updateWindowDims = []) (hiw : d.insertedWindowDims = [0]) (hsd : d.scatterDimsToOperandDims = [0])
    (hiv : d.indexVectorDim = 1) (j : (⟨1, ![E]⟩ : Shape).Idx) (idx : IVec ⟨2, ![E, 1]⟩ w) (n : Fin N) :
    d.resultIdx? j idx = some (ix1 n) ↔ (idx (ix2 (j 0) 0)).toInt = (n.val : ℤ) := by
  rw [resultIdx?_eq_some_iff, Fin.forall_fin_one]
  have hs := siIdx1 d huw hiw hsd hiv j
  obtain ⟨uw, iw, sd, iv, wf⟩ := d
  simp only at huw hiw hsd hiv
  subst huw hiw hsd hiv
  have s0 : ScatterDims.start ⟨[], [0], [0], 1, wf⟩ j idx 0 = (idx (ix2 (j 0) 0)).toInt := by
    unfold ScatterDims.start
    rw [dif_pos (show _ from List.mem_singleton.2 rfl)]
    exact congrArg (fun t => (idx t).toInt) (hs _)
  have w0 : ScatterDims.window ⟨[], [0], [0], 1, wf⟩ j 0 = 0 := by
    unfold ScatterDims.window
    rw [dif_neg (by simp [ScatterDims.sKept, Shape.kept])]
  rw [s0, w0]
  show (idx (ix2 (j 0) 0)).toInt + ((0 : ℕ) : ℤ) = (n.val : ℤ) ↔ _
  constructor
  · intro h1
    omega
  · intro h1
    omega

end Rank1

section Rank3
variable {N E C w : Nat}

/-- Rank-3 case: the scatter-indices position read for an update index is `(row, 0)`. -/
theorem siIdx3 (d : ScatterDims ⟨3, ![N, 1, C]⟩ ⟨2, ![E, 1]⟩ ⟨3, ![E, 1, C]⟩)
    (huw : d.updateWindowDims = [1, 2]) (hiw : d.insertedWindowDims = [0]) (hsd : d.scatterDimsToOperandDims = [0])
    (hiv : d.indexVectorDim = 1) (j : (⟨3, ![E, 1, C]⟩ : Shape).Idx) (h0 : 0 < d.scatterDimsToOperandDims.length) :
    d.siIdx j ⟨0, h0⟩ = ix2 (j 0) 0 := by
  obtain ⟨uw, iw, sd, iv, wf⟩ := d
  simp only at huw hiw hsd hiv
  subst huw hiw hsd hiv
  funext b
  match b with
  | ⟨0, _⟩ => rfl
  | ⟨1, _⟩ => rfl

/-- Rank-3 case: an update index lands on `(n, 0, c)` exactly when its row's start index is `n` and its last
    coordinate is `c` (the middle coordinate lives on a unit axis, so it is `0` on both sides). -/
theorem resultIdx3_iff (d : ScatterDims ⟨3, ![N, 1, C]⟩ ⟨2, ![E, 1]⟩ ⟨3, ![E, 1, C]⟩)
    (huw : d.updateWindowDims = [1, 2]) (hiw : d.insertedWindowDims = [0]) (hsd : d.scatterDimsToOperandDims = [0])
    (hiv : d.indexVectorDim = 1) (j : (⟨3, ![E, 1, C]⟩ : Shape).Idx) (idx : IVec ⟨2, ![E, 1]⟩ w) (n : Fin N) (c : Fin C) :
    d.resultIdx? j idx = some (ix3 n 0 c) ↔ (idx (ix2 (j 0) 0)).toInt = (n.val : ℤ) ∧ (j 2).val = c.val := by
  rw [resultIdx?_eq_some_iff]
  have hs := siIdx3 d huw hiw hsd hiv j
  have hj1 : (j 1).val < 1 := (j 1).isLt
  obtain ⟨uw, iw, sd, iv, wf⟩ := d
  simp only at huw hiw hsd hiv
  subst huw hiw hsd hiv
  have s0 : ScatterDims.start ⟨[1, 2], [0], [0], 1, wf⟩ j idx 0 = (idx (ix2 (j 0) 0)).toInt := by
    unfold ScatterDims.start
    rw [dif_pos (show _ from List.mem_singleton.2 rfl)]
    exact congrArg (fun t => (idx t).toInt) (hs _)
  have s1 : ScatterDims.start ⟨[1, 2], [0], [0], 1, wf⟩ j idx 1 = 0 := by
    unfold ScatterDims.start
    rw [dif_neg (by simp)]
  have s2 : ScatterDims.start ⟨[1, 2], [0], [0], 1, wf⟩ j idx 2 = 0 := by
    unfold ScatterDims.start
    rw [dif_neg (by simp)]
  have w0 : ScatterDims.window ⟨[1, 2], [0], [0], 1, wf⟩ j 0 = 0 := by
    unfold ScatterDims.window
    rw [dif_neg (by simp [ScatterDims.sKept, Shape.kept])]
  have w1 : ScatterDims.window ⟨[1, 2], [0], [0], 1, wf⟩ j 1 = (j 1).val := by
    unfold ScatterDims.window
    rw [dif_pos (by simp [ScatterDims.sKept, Shape.kept])]
    rfl
  have w2 : ScatterDims.window ⟨[1, 2], [0], [0], 1, wf⟩ j 2 = (j 2).val := by
    unfold ScatterDims.window
    rw [dif_pos (by simp [ScatterDims.sKept, Shape.kept])]
    rfl
  constructor
  · intro h
    have h0 := h 0
    have h2 := h 2
    rw [s0, w0] at h0
    rw [s2, w2] at h2
    have h0' : (idx (ix2 (j 0) 0)).toInt + ((0 : ℕ) : ℤ) = (n.val : ℤ) := h0
    have h2' : (0 : ℤ) + (((j 2).val : ℕ) : ℤ) = (c.val : ℤ) := h2
    exact ⟨by omega, by omega⟩
  · rintro ⟨h0, h2⟩ a
    match a with
    | ⟨0, _⟩ =>
      show ScatterDims.start ⟨[1, 2], [0], [0], 1, wf⟩ j idx 0
        + ((ScatterDims.window ⟨[1, 2], [0], [0], 1, wf⟩ j 0 : ℕ) : ℤ) = (n.val : ℤ)
      rw [s0, w0]
      omega
    | ⟨1, _⟩ =>
      show ScatterDims.start ⟨[1, 2], [0], [0], 1, wf⟩ j idx 1
        + ((ScatterDims.window ⟨[1, 2], [0], [0], 1, wf⟩ j 1 : ℕ) : ℤ) = ((0 : ℕ) : ℤ)
      rw [s1, w1]
      omega
    | ⟨2, _⟩ =>
      show ScatterDims.start ⟨[1, 2], [0], [0], 1, wf⟩ j idx 2
        + ((ScatterDims.window ⟨[1, 2], [0], [0], 1, wf⟩ j 2 : ℕ) : ℤ) = (c.val : ℤ)
      rw [s2, w2]
      omega

end Rank3

/-- Rows scattered into a vector: element `n` gains the updates of the rows whose start index is `n`. -/
theorem scatterAdd_rows1 {N E w : Nat} (d : ScatterDims ⟨1, ![N]⟩ ⟨2, ![E, 1]⟩ ⟨1, ![E]⟩)
    (huw : d.updateWindowDims = []) (hiw : d.insertedWindowDims = [0]) (hsd : d.scatterDimsToOperandDims = [0])
    (hiv : d.indexVectorDim = 1)
    (x : (⟨1, ![N]⟩ : Shape).Idx → EReal) (idx : IVec ⟨2, ![E, 1]⟩ w) (upd : (⟨1, ![E]⟩ : Shape).Idx → EReal)
    (n : Fin N) :
    Ideal.hostScatterAdd d x idx upd (ix1 n)
      = x (ix1 n) + ∑ e ∈ Finset.univ.filter (fun e : Fin E => (idx (ix2 e 0)).toInt = (n.val : ℤ)), upd (ix1 e) := by
  unfold Ideal.hostScatterAdd
  congr 1
  symm
  apply Finset.sum_nbij (fun e => ix1 e)
  · intro e he
    rw [Finset.mem_filter] at he ⊢
    refine ⟨Finset.mem_univ _, ?_⟩
    rw [resultIdx1_iff d huw hiw hsd hiv]
    exact he.2
  · intro e1 _ e2 _ h
    exact congrFun h 0
  · intro j hj
    rw [Finset.mem_coe, Finset.mem_filter, resultIdx1_iff d huw hiw hsd hiv] at hj
    refine ⟨j 0, ?_, ?_⟩
    · exact Finset.mem_coe.2 (Finset.mem_filter.2 ⟨Finset.mem_univ _, hj.2⟩)
    · exact (eq_ix1 j).symm
  · intro e _
    rfl

/-- Rows scattered into a matrix: element `(n, c)` gains column `c` of the rows whose start index is `n`. -/
theorem scatterAdd_rows2 {N E C w : Nat} (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hiv : d.indexVectorDim = 1)
    (x : (⟨2, ![N, C]⟩ : Shape).Idx → EReal) (idx : IVec ⟨2, ![E, 1]⟩ w) (upd : (⟨2, ![E, C]⟩ : Shape).Idx → EReal)
    (n : Fin N) (c : Fin C) :
    Ideal.hostScatterAdd d x idx upd (ix2 n c)
      = x (ix2 n c) + ∑ e ∈ Finset.univ.filter (fun e : Fin E => (idx (ix2 e 0)).toInt = (n.val : ℤ)), upd (ix2 e c) := by
  unfold Ideal.hostScatterAdd
  congr 1
  symm
  apply Finset.sum_nbij (fun e => ix2 e c)
  · intro e he
    rw [Finset.mem_filter] at he ⊢
    refine ⟨Finset.mem_univ _, ?_⟩
    rw [resultIdx2_iff d huw hiw hsd hiv]
    exact ⟨he.2, rfl⟩
  · intro e1 _ e2 _ h
    exact congrFun h 0
  · intro j hj
    rw [Finset.mem_coe, Finset.mem_filter, resultIdx2_iff d huw hiw hsd hiv] at hj
    refine ⟨j 0, ?_, ?_⟩
    · exact Finset.mem_coe.2 (Finset.mem_filter.2 ⟨Finset.mem_univ _, hj.2.1⟩)
    · have hc : j 1 = c := Fin.ext hj.2.2
      rw [← hc]
      exact (eq_ix2 j).symm
  · intro e _
    rfl

/-- Rows scattered into a rank-3 array with a unit middle axis: element `(n, 0, c)` gains element `(e, 0, c)`
    of the rows `e` whose start index is `n`. -/
theorem scatterAdd_rows3 {N E C w : Nat} (d : ScatterDims ⟨3, ![N, 1, C]⟩ ⟨2, ![E, 1]⟩ ⟨3, ![E, 1, C]⟩)
    (huw : d.updateWindowDims = [1, 2]) (hiw : d.insertedWindowDims = [0]) (hsd : d.scatterDimsToOperandDims = [0])
    (hiv : d.indexVectorDim = 1)
    (x : (⟨3, ![N, 1, C]⟩ : Shape).Idx → EReal) (idx : IVec ⟨2, ![E, 1]⟩ w) (upd : (⟨3, ![E, 1, C]⟩ : Shape).Idx → EReal)
    (n : Fin N) (c : Fin C) :
    Ideal.hostScatterAdd d x idx upd (ix3 n 0 c)
      = x (ix3 n 0 c) + ∑ e ∈ Finset.univ.filter (fun e : Fin E => (idx (ix2 e 0)).toInt = (n.val : ℤ)), upd (ix3 e 0 c) := by
  unfold Ideal.hostScatterAdd
  congr 1
  symm
  apply Finset.sum_nbij (fun e => ix3 e 0 c)
  · intro e he
    rw [Finset.mem_filter] at he ⊢
    refine ⟨Finset.mem_univ _, ?_⟩
    rw [resultIdx3_iff d huw hiw hsd hiv]
    exact ⟨he.2, rfl⟩
  · intro e1 _ e2 _ h
    exact congrFun h 0
  · intro j hj
    rw [Finset.mem_coe, Finset.mem_filter, resultIdx3_iff d huw hiw hsd hiv] at hj
    refine ⟨j 0, ?_, ?_⟩
    · exact Finset.mem_coe.2 (Finset.mem_filter.2 ⟨Finset.mem_univ _, hj.2.1⟩)
    · have hj1 : (j 1).val < 1 := (j 1).isLt
      have hb : j 1 = (0 : Fin 1) := Fin.ext (Nat.lt_one_iff.1 hj1)
      have hc : j 2 = c := Fin.ext hj.2.2
      rw [← hb, ← hc]
      exact (eq_ix3 j).symm
  · intro e _
    rfl

/-! ## The same, stated of the host operation at the ideal instance

The host's accumulating scatter is, at the ideal instance, the exact sum by definition, whatever the shapes; the
three element forms above follow for it. -/

/-- At the ideal instance the host's accumulating scatter is the exact sum. -/
theorem host_scatterAdd_eq {s si u : Shape} {w : Nat} {φ : FTy} (d : ScatterDims s si u) (x : FVec Ideal s φ)
    (idx : IVec si w) (upd : FVec Ideal u φ) :
    Host.scatterAdd (F := Ideal) d x idx upd = Ideal.hostScatterAdd d x idx upd := rfl

/-- Rows scattered into a vector by the host operation: element `n` gains the updates of the rows whose start index is `n`. -/
theorem host_scatterAdd_rows1 {N E w : Nat} {φ : FTy} (d : ScatterDims ⟨1, ![N]⟩ ⟨2, ![E, 1]⟩ ⟨1, ![E]⟩)
    (huw : d.updateWindowDims = []) (hiw : d.insertedWindowDims = [0]) (hsd : d.scatterDimsToOperandDims = [0])
    (hiv : d.indexVectorDim = 1)
    (x : FVec Ideal ⟨1, ![N]⟩ φ) (idx : IVec ⟨2, ![E, 1]⟩ w) (upd : FVec Ideal ⟨1, ![E]⟩ φ) (n : Fin N) :
    Host.scatterAdd (F := Ideal) d x idx upd (ix1 n)
      = x (ix1 n) + ∑ e ∈ Finset.univ.filter (fun e : Fin E => (idx (ix2 e 0)).toInt = (n.val : ℤ)), upd (ix1 e) :=
  (congrFun (host_scatterAdd_eq d x idx upd) (ix1 n)).trans (scatterAdd_rows1 d huw hiw hsd hiv x idx upd n)

/-- Rows scattered into a matrix by the host operation: element `(n, c)` gains column `c` of the rows whose start index is `n`. -/
theorem host_scatterAdd_rows2 {N E C w : Nat} {φ : FTy} (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hiv : d.indexVectorDim = 1)
    (x : FVec Ideal ⟨2, ![N, C]⟩ φ) (idx : IVec ⟨2, ![E, 1]⟩ w) (upd : FVec Ideal ⟨2, ![E, C]⟩ φ) (n : Fin N) (c : Fin C) :
    Host.scatterAdd (F := Ideal) d x idx upd (ix2 n c)
      = x (ix2 n c) + ∑ e ∈ Finset.univ.filter (fun e : Fin E => (idx (ix2 e 0)).toInt = (n.val : ℤ)), upd (ix2 e c) :=
  (congrFun (host_scatterAdd_eq d x idx upd) (ix2 n c)).trans (scatterAdd_rows2 d huw hiw hsd hiv x idx upd n c)

/-- Rows scattered into a rank-3 array with a unit middle axis by the host operation: element `(n, 0, c)` gains element
    `(e, 0, c)` of the rows `e` whose start index is `n`. -/
theorem host_scatterAdd_rows3 {N E C w : Nat} {φ : FTy} (d : ScatterDims ⟨3, ![N, 1, C]⟩ ⟨2, ![E, 1]⟩ ⟨3, ![E, 1, C]⟩)
    (huw : d.updateWindowDims = [1, 2]) (hiw : d.insertedWindowDims = [0]) (hsd : d.scatterDimsToOperandDims = [0])
    (hiv : d.indexVectorDim = 1)
    (x : FVec Ideal ⟨3, ![N, 1, C]⟩ φ) (idx : IVec ⟨2, ![E, 1]⟩ w) (upd : FVec Ideal ⟨3, ![E, 1, C]⟩ φ) (n : Fin N) (c : Fin C) :
    Host.scatterAdd (F := Ideal) d x idx upd (ix3 n 0 c)
      = x (ix3 n 0 c) + ∑ e ∈ Finset.univ.filter (fun e : Fin E => (idx (ix2 e 0)).toInt = (n.val : ℤ)), upd (ix3 e 0 c) :=
  (congrFun (host_scatterAdd_eq d x idx upd) (ix3 n 0 c)).trans (scatterAdd_rows3 d huw hiw hsd hiv x idx upd n c)

end Cert.ScatterRows

end
-- ==== Proof.RefSpec.lean ====
/-
  The reference program computes the specification.

  Its result is read one operation at a time: the last two operations clamp at zero the sum of the matrix product
  and the bias; the product's left operand joins the node features with the quotient of the two scatters; each
  scatter at a node is the sum over the node's incoming edges.
-/
import proofs.«103040_j352187318566_2_alg».proof.Proof.Gen.ReferenceIdeal.Read
import proofs.«103040_j352187318566_2_alg».proof.Proof.Spec
import proofs.«103040_j352187318566_2_alg».proof.Proof.LibScatterRows

noncomputable section

namespace Cert.ReferenceIdeal.RefSpec

open Cert.ReferenceIdeal Cert.ReferenceIdeal.Gen Cert.ReferenceIdeal.Read Idealize.ShloMosaic Idealize.ShloMosaic.ValueIdx
open Cert.NeighbourMean

/-- The scatter indices at row `e` are edge `e`'s destination word. -/
theorem indices_row (x3 : (⟨S1600000, .i32⟩ : BufTy).Contents (Elt Ideal)) (e : Fin 1600000) :
    val_main_v4 (F := Ideal) x3 (ix2 e (0 : Fin 1)) = x3 (ix1 e) := by
  rw [val_main_v4_apply]
  exact congrArg x3 (funext fun a => match a with | ⟨0, _⟩ => rfl)

theorem indices_row' (x3 : (⟨S1600000, .i32⟩ : BufTy).Contents (Elt Ideal)) (e : Fin 1600000) :
    val_main_v8 (F := Ideal) x3 (ix2 e (0 : Fin 1)) = x3 (ix1 e) := by
  rw [val_main_v8_apply]
  exact congrArg x3 (funext fun a => match a with | ⟨0, _⟩ => rfl)

/-- The message of edge `e`, feature `c`: its weight times its feature. -/
theorem message_apply (x1 : (⟨S1600000x1x64, .f32⟩ : BufTy).Contents (Elt Ideal)) (x2 : (⟨S1600000, .f32⟩ : BufTy).Contents (Elt Ideal))
    (e : Fin 1600000) (c : Fin 64) :
    val_main_v2 (F := Ideal) x1 x2 (ix3 e (0 : Fin 1) c) = x2 (ix1 e) * x1 (ix3 e (0 : Fin 1) c) := by
  rw [val_main_v2_apply, val_main_v1_apply, val_main_v0_apply]
  show x2 _ * _ = _
  exact congrArg (fun z => x2 z * x1 (ix3 e (0 : Fin 1) c)) (funext fun a => match a with | ⟨0, _⟩ => rfl)

/-- The first scatter at node `n`, feature `c`, is the node's aggregate. -/
theorem aggregate_apply (x1 : (⟨S1600000x1x64, .f32⟩ : BufTy).Contents (Elt Ideal)) (x2 : (⟨S1600000, .f32⟩ : BufTy).Contents (Elt Ideal))
    (x3 : (⟨S1600000, .i32⟩ : BufTy).Contents (Elt Ideal)) (n : Fin 100000) (c : Fin 64) :
    val_main_v5 (F := Ideal) x1 x2 x3 (ix3 n (0 : Fin 1) c) = aggregate x1 x2 x3 n c := by
  unfold val_main_v5
  rw [Cert.ScatterRows.host_scatterAdd_rows3 scatter_S100000x1x64_S1600000x1_S1600000x1x64_12_0_0_1 rfl rfl rfl rfl]
  unfold aggregate inEdges
  refine congrArg₂ (· + ·) ?_ (Finset.sum_congr (Finset.filter_congr fun e _ => by rw [indices_row]) fun e _ => message_apply x1 x2 e c)
  rw [val_main_v3_apply, val_main_cst_apply]
  exact Ideal.ofBits_def _

/-- The second scatter at node `n` is the node's degree. -/
theorem degree_apply (x3 : (⟨S1600000, .i32⟩ : BufTy).Contents (Elt Ideal)) (n : Fin 100000) :
    val_main_v9 (F := Ideal) x3 (ix1 n) = degree x3 n := by
  unfold val_main_v9
  rw [Cert.ScatterRows.host_scatterAdd_rows1 scatter_S100000_S1600000x1_S1600000_n_0_0_1 rfl rfl rfl rfl]
  unfold degree inEdges
  refine congrArg₂ (· + ·) ?_ (Finset.sum_congr (Finset.filter_congr fun e _ => by rw [indices_row']) fun e _ => ?_)
  · rw [val_main_v7_apply, val_main_cst_1_apply]
    exact Ideal.ofBits_def _
  · rw [val_main_v6_apply, val_main_cst_0_apply]
    exact Ideal.ofBits_def _

/-- The quotient at node `n`, feature `c`, is the node's neighbour feature. -/
theorem neighbour_apply (x1 : (⟨S1600000x1x64, .f32⟩ : BufTy).Contents (Elt Ideal)) (x2 : (⟨S1600000, .f32⟩ : BufTy).Contents (Elt Ideal))
    (x3 : (⟨S1600000, .i32⟩ : BufTy).Contents (Elt Ideal)) (n : Fin 100000) (c : Fin 64) :
    val_main_v14 (F := Ideal) x1 x2 x3 (ix3 n (0 : Fin 1) c) = neighbour x1 x2 x3 n c := by
  rw [val_main_v14_apply, val_main_v13_apply, val_main_v12_apply, val_main_v11_apply, val_main_v10_apply, val_main_cst_2_apply,
    aggregate_apply]
  have e : idx_main_v12 (idx_main_v13 (ix3 n (0 : Fin 1) c)) = ix1 n := funext fun a => match a with | ⟨0, _⟩ => rfl
  rw [e, degree_apply]
  show Ideal.div _ (max _ _) = _
  unfold neighbour
  rfl

/-- The product's left operand at node `n`, column `k`, is the node's feature `k`. -/
theorem feature_apply (x0 : (⟨S100000x1x64, .f32⟩ : BufTy).Contents (Elt Ideal)) (x1 : (⟨S1600000x1x64, .f32⟩ : BufTy).Contents (Elt Ideal))
    (x2 : (⟨S1600000, .f32⟩ : BufTy).Contents (Elt Ideal)) (x3 : (⟨S1600000, .i32⟩ : BufTy).Contents (Elt Ideal))
    (n : Fin 100000) (k : Fin 128) :
    val_main_v15 (F := Ideal) x0 x1 x2 x3 (ix3 n (0 : Fin 1) k) = feature x0 x1 x2 x3 n k := by
  unfold val_main_v15 feature
  by_cases h : k.val < 64
  · rw [dif_pos h]
    exact concatenate_pair_apply_left (2 : Fin 3) x0 (val_main_v14 (F := Ideal) x1 x2 x3)
      concatenates_S100000x1x64_S100000x1x64_S100000x1x128_d2 (ix3 n (0 : Fin 1) k) rfl (ix3 n (0 : Fin 1) (⟨k.val, h⟩ : Fin 64))
      (fun b => match b with | ⟨0, _⟩ => rfl | ⟨1, _⟩ => rfl | ⟨2, _⟩ => rfl)
  · rw [dif_neg h]
    refine (concatenate_pair_apply_right (2 : Fin 3) x0 (val_main_v14 (F := Ideal) x1 x2 x3)
      concatenates_S100000x1x64_S100000x1x64_S100000x1x128_d2 (ix3 n (0 : Fin 1) k) rfl rfl
      (ix3 n (0 : Fin 1) (⟨k.val - 64, by have := k.isLt; omega⟩ : Fin 64))
      (fun b => match b with
        | ⟨0, _⟩ => fun _ => rfl
        | ⟨1, _⟩ => fun _ => rfl
        | ⟨2, _⟩ => fun hb => absurd rfl hb)
      (by show (k.val - 64) + 64 = k.val; omega)).trans ?_
    exact neighbour_apply x1 x2 x3 n _

/-- The reference's result is the specification's. -/
theorem result_eq (x0 : (⟨S100000x1x64, .f32⟩ : BufTy).Contents (Elt Ideal)) (x1 : (⟨S1600000x1x64, .f32⟩ : BufTy).Contents (Elt Ideal))
    (x2 : (⟨S1600000, .f32⟩ : BufTy).Contents (Elt Ideal)) (x3 : (⟨S1600000, .i32⟩ : BufTy).Contents (Elt Ideal))
    (x4 : (⟨S128x128, .f32⟩ : BufTy).Contents (Elt Ideal)) (x5 : (⟨S128, .f32⟩ : BufTy).Contents (Elt Ideal)) :
    val_main_v20 (F := Ideal) x0 x1 x2 x3 x4 x5 = result x0 x1 x2 x3 x4 x5 := by
  funext i
  obtain ⟨n, u, o, rfl⟩ : ∃ (n : Fin 100000) (u : Fin 1) (o : Fin 128), i = ix3 n u o := ⟨i 0, i 1, i 2, eq_ix3 i⟩
  obtain rfl : u = 0 := Subsingleton.elim _ _
  rw [val_main_v20_apply, val_main_v19_apply, val_main_v16_apply, val_main_v18_apply, val_main_v17_apply,
    val_main_call0_v0_apply, val_main_call0_cst_apply]
  unfold result output
  show max (_ + _) _ = max (_ + _) _
  refine congrArg₂ max (congrArg₂ (· + ·) (Finset.sum_congr rfl fun k _ => ?_) ?_) rfl
  · have el : lidx_main_v16 (ix3 n (0 : Fin 1) o) k = ix3 n (0 : Fin 1) k :=
      funext fun a => match a with | ⟨0, _⟩ => rfl | ⟨1, _⟩ => rfl | ⟨2, _⟩ => rfl
    have er : ridx_main_v16 (ix3 n (0 : Fin 1) o) k = ix2 o k :=
      funext fun a => match a with | ⟨0, _⟩ => rfl | ⟨1, _⟩ => rfl
    rw [el, er, feature_apply]
  · exact congrArg x5 (funext fun a => match a with | ⟨0, _⟩ => rfl)

end Cert.ReferenceIdeal.RefSpec

end
-- ==== Proof.KernelEntryTerms.lean ====
/-
  The arrays the kernel's launch reads, as functions of the program's arguments, read at an element.

  Before the launch the program reshapes the node features to a matrix, transposes the weight matrix, and builds
  the aggregate matrix [100000, 65]: every edge's message row is its weight times its 64 features followed by a
  one, and the rows are scatter-added into a zero matrix at the edges' destinations.  So column c < 64 of row n
  of the aggregate matrix is node n's aggregate of feature c, and column 64 is node n's degree.
-/
import proofs.«103040_j352187318566_2_alg».proof.Proof.Gen.KernelIdeal
import proofs.«103040_j352187318566_2_alg».proof.Proof.Spec
import proofs.«103040_j352187318566_2_alg».proof.Proof.LibScatterRows
import Idealize.ShloMosaic.Lib.Pipeline.Value
import Idealize.ShloMosaic.Lib.ValueIdx
import Idealize.ShloMosaic.Lib.ValueLayout
import Idealize.ShloMosaic.PureOps.Ideal

noncomputable section

namespace Cert.KernelIdeal.Entry

open Cert.KernelIdeal Cert.KernelIdeal.Gen Idealize.ShloMosaic Idealize.ShloMosaic.ValueIdx
open Cert.NeighbourMean

/-- The node features as a matrix: the unit axis dropped. -/
def nodeRows (a0 : FVec Ideal S100000x1x64 .f32) : FVec Ideal S100000x64 .f32 :=
  shapeCast S100000x64 a0 shapeCasts_S100000x1x64_S100000x64

/-- The message rows: each edge's weight times its features, then a one. -/
def messages (a1 : FVec Ideal S1600000x1x64 .f32) (a2 : FVec Ideal S1600000 .f32) : FVec Ideal S1600000x65 .f32 :=
  concatenate S1600000x65 1
    [⟨S1600000x64, mulf (broadcastInDim S1600000x64 ![0, 1] bcast_S1600000x1_S1600000x64_0_1
        (broadcastInDim S1600000x1 ![0] bcast_S1600000_S1600000x1_0 a2))
        (shapeCast S1600000x64 a1 shapeCasts_S1600000x1x64_S1600000x64)⟩,
     ⟨S1600000x1, broadcastInDim S1600000x1 ![] bcast_S_S1600000x1 (constant (F := Ideal) S_ .f32 0x3F800000#32)⟩]
    concatenates_S1600000x64_S1600000x1_S1600000x65_d1

/-- The aggregate matrix: the message rows scatter-added into zeros at the edges' destinations. -/
def scattered (a1 : FVec Ideal S1600000x1x64 .f32) (a2 : FVec Ideal S1600000 .f32) (a3 : IVec S1600000 32) :
    FVec Ideal S100000x65 .f32 :=
  Host.scatterAdd scatter_S100000x65_S1600000x1_S1600000x65_1_0_0_1
    (broadcastInDim S100000x65 ![] bcast_S_S100000x65 (constant (F := Ideal) S_ .f32 0x00000000#32))
    (broadcastInDim S1600000x1 ![0] bcast_S1600000_S1600000x1_0 a3) (messages a1 a2)

/-- The weight matrix transposed. -/
def weightT (a4 : FVec Ideal S128x128 .f32) : FVec Ideal S128x128 .f32 :=
  transpose S128x128 [1, 0] a4 transposes_S128x128_S128x128_1_0

/-- Row `n`, column `k` of the node-feature matrix is feature `k` of node `n`. -/
theorem nodeRows_apply (a0 : FVec Ideal S100000x1x64 .f32) (n : Fin 100000) (k : Fin 64) :
    nodeRows a0 (ix2 n k) = a0 (ix3 n (0 : Fin 1) k) := by
  unfold nodeRows
  refine shapeCast_apply a0 shapeCasts_S100000x1x64_S100000x64 (ix2 n k) (ix3 n (0 : Fin 1) k) ?_
  rw [Shape.rowMajor_val_three, Shape.rowMajor_val_two]
  show (n.val * 1 + 0) * 64 + k.val = n.val * 64 + k.val
  omega

/-- The transposed weight at `(k, q)` is the weight at `(q, k)`. -/
theorem weightT_apply (a4 : FVec Ideal S128x128 .f32) (k q : Fin 128) :
    weightT a4 (ix2 k q) = a4 (ix2 q k) := by
  unfold weightT
  exact transpose_ix2_apply a4 transposes_S128x128_S128x128_1_0 k q

/-- A message row's first 64 columns: the edge's weight times its feature. -/
theorem messages_feature (a1 : FVec Ideal S1600000x1x64 .f32) (a2 : FVec Ideal S1600000 .f32) (e : Fin 1600000) (c : Fin 64) :
    messages a1 a2 (ix2 e (⟨c.val, by have := c.isLt; omega⟩ : Fin 65)) = a2 (ix1 e) * a1 (ix3 e (0 : Fin 1) c) := by
  unfold messages
  refine (concatenate_pair_apply_left (s₁ := S1600000x64) (s₂ := S1600000x1) (1 : Fin 2) _ _
    concatenates_S1600000x64_S1600000x1_S1600000x65_d1 (ix2 e (⟨c.val, by have := c.isLt; omega⟩ : Fin 65)) rfl (ix2 e c)
    (fun b => match b with | ⟨0, _⟩ => rfl | ⟨1, _⟩ => rfl)).trans ?_
  rw [mulf_apply]
  refine congrArg₂ (· * ·) ?_ ?_
  · -- the weight, broadcast along the row and then along the columns
    refine (broadcastInDim_apply _ bcast_S1600000x1_S1600000x64_0_1 _ (ix2 e c) (ix2 e (0 : Fin 1)) (fun a => match a with
      | ⟨0, _⟩ => by show e.val = if (1600000 : Nat) = 1 then 0 else e.val; rw [if_neg (by decide)]
      | ⟨1, _⟩ => by show 0 = if (1 : Nat) = 1 then 0 else c.val; rw [if_pos rfl])).trans ?_
    exact broadcastInDim_apply _ bcast_S1600000_S1600000x1_0 a2 (ix2 e (0 : Fin 1)) (ix1 e) (fun a => match a with
      | ⟨0, _⟩ => by show e.val = if (1600000 : Nat) = 1 then 0 else e.val; rw [if_neg (by decide)])
  · -- the edge features with the unit axis dropped
    refine shapeCast_apply a1 shapeCasts_S1600000x1x64_S1600000x64 (ix2 e c) (ix3 e (0 : Fin 1) c) ?_
    rw [Shape.rowMajor_val_three, Shape.rowMajor_val_two]
    show (e.val * 1 + 0) * 64 + c.val = e.val * 64 + c.val
    omega

/-- A message row's last column: one. -/
theorem messages_one (a1 : FVec Ideal S1600000x1x64 .f32) (a2 : FVec Ideal S1600000 .f32) (e : Fin 1600000) :
    messages a1 a2 (ix2 e (⟨64, by decide⟩ : Fin 65)) = oneW := by
  unfold messages
  refine (concatenate_pair_apply_right (s₁ := S1600000x64) (s₂ := S1600000x1) (1 : Fin 2) _ _
    concatenates_S1600000x64_S1600000x1_S1600000x65_d1 (ix2 e (⟨64, by decide⟩ : Fin 65)) rfl rfl (ix2 e (0 : Fin 1))
    (fun b hb => match b, hb with | ⟨0, _⟩, _ => rfl | ⟨1, _⟩, hb => absurd rfl hb) rfl).trans ?_
  refine (broadcastInDim_apply _ bcast_S_S1600000x1 _ (ix2 e (0 : Fin 1)) ix0 (fun a => a.elim0)).trans ?_
  rfl

/-- The zero matrix the rows are added into reads the zero word everywhere. -/
theorem zeros_apply (n : Fin 100000) (c : Fin 65) :
    broadcastInDim S100000x65 ![] bcast_S_S100000x65 (constant (F := Ideal) S_ .f32 0x00000000#32) (ix2 n c) = zeroW := by
  refine (broadcastInDim_apply _ bcast_S_S100000x65 _ (ix2 n c) ix0 (fun a => a.elim0)).trans ?_
  rfl

/-- The destinations as a one-column matrix: row `e` holds edge `e`'s destination word. -/
theorem indices_apply (a3 : IVec S1600000 32) (e : Fin 1600000) :
    broadcastInDim S1600000x1 ![0] bcast_S1600000_S1600000x1_0 a3 (ix2 e (0 : Fin 1)) = a3 (ix1 e) :=
  broadcastInDim_apply _ bcast_S1600000_S1600000x1_0 a3 (ix2 e (0 : Fin 1)) (ix1 e) (fun a => match a with
    | ⟨0, _⟩ => by show e.val = if (1600000 : Nat) = 1 then 0 else e.val; rw [if_neg (by decide)])

/-- Column `c < 64` of row `n` of the aggregate matrix is node `n`'s aggregate of feature `c`. -/
theorem scattered_feature (a1 : FVec Ideal S1600000x1x64 .f32) (a2 : FVec Ideal S1600000 .f32) (a3 : IVec S1600000 32)
    (n : Fin 100000) (c : Fin 64) :
    scattered a1 a2 a3 (ix2 n (⟨c.val, by have := c.isLt; omega⟩ : Fin 65)) = aggregate a1 a2 a3 n c := by
  unfold scattered
  rw [Cert.ScatterRows.host_scatterAdd_rows2 scatter_S100000x65_S1600000x1_S1600000x65_1_0_0_1 rfl rfl rfl rfl]
  unfold aggregate inEdges
  refine congrArg₂ (· + ·) (zeros_apply n _) ?_
  exact Finset.sum_congr (Finset.filter_congr fun e _ => by rw [indices_apply a3 e])
    (fun e _ => messages_feature a1 a2 e c)

/-- Column 64 of row `n` of the aggregate matrix is node `n`'s degree. -/
theorem scattered_count (a1 : FVec Ideal S1600000x1x64 .f32) (a2 : FVec Ideal S1600000 .f32) (a3 : IVec S1600000 32)
    (n : Fin 100000) :
    scattered a1 a2 a3 (ix2 n (⟨64, by decide⟩ : Fin 65)) = degree a3 n := by
  unfold scattered
  rw [Cert.ScatterRows.host_scatterAdd_rows2 scatter_S100000x65_S1600000x1_S1600000x65_1_0_0_1 rfl rfl rfl rfl]
  unfold degree inEdges
  refine congrArg₂ (· + ·) (zeros_apply n _) ?_
  exact Finset.sum_congr (Finset.filter_congr fun e _ => by rw [indices_apply a3 e])
    (fun e _ => messages_one a1 a2 e)

end Cert.KernelIdeal.Entry

end
-- ==== Proof.KernelEntry.lean ====
/-
  What the launch finds in the arrays it reads: the node features reshaped, the aggregate matrix, the weights
  transposed, each as the host operations before the launch leave it, a function of the program's arguments.
-/
import proofs.«103040_j352187318566_2_alg».proof.Proof.Gen.KernelIdeal.Frame
import proofs.«103040_j352187318566_2_alg».proof.Proof.KernelEntryTerms
import Idealize.ShloMosaic.Lib.StableHlo.Run
import Idealize.ShloMosaic.PureOps.Ideal

noncomputable section

namespace Cert.KernelIdeal.Entry

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

/-- The first window's array is the node features as a matrix. -/
theorem V_nodeRows (c : Dev nD) :
    (V m c main_v0 : S100000x64.Idx → EReal) = nodeRows (m ((c : Thread nD τ).loc main_arg0)) := by
  show StableHlo.after hostOps0 (fun b => m (c, b)) (Proc.devRef .tc main_v0) = _
  after_results
  rfl

/-- The second window's array is the aggregate matrix. -/
theorem V_scattered (c : Dev nD) :
    (V m c main_v9 : S100000x65.Idx → EReal)
      = scattered (m ((c : Thread nD τ).loc main_arg1)) (m ((c : Thread nD τ).loc main_arg2)) (m ((c : Thread nD τ).loc main_arg3)) := by
  show StableHlo.after hostOps0 (fun b => m (c, b)) (Proc.devRef .tc main_v9) = _
  after_results
  rfl

/-- The same, with the window's array named as the launch names it. -/
theorem V_scattered_window (c : Dev nD) :
    V m c (Pipeline.arrRef spec0 (1 : Fin cfg0.W))
      = scattered (m ((c : Thread nD τ).loc main_arg1)) (m ((c : Thread nD τ).loc main_arg2)) (m ((c : Thread nD τ).loc main_arg3)) :=
  V_scattered m c

/-- The third window's array is the weight matrix transposed. -/
theorem V_weightT (c : Dev nD) :
    (V m c main_v10 : S128x128.Idx → EReal) = weightT (m ((c : Thread nD τ).loc main_arg4)) := by
  show StableHlo.after hostOps0 (fun b => m (c, b)) (Proc.devRef .tc main_v10) = _
  after_results
  rfl

end Cert.KernelIdeal.Entry

end
-- ==== Proof.LibColumnLayout.lean ====
/-
  A vector laid out as a column, and a column broadcast across many columns.

  Reading a reshape or a broadcast at an index: an `[a]` array cast to `[a, 1]` holds at (i, 0) its entry i, and an
  `[a, 1]` column broadcast to `[a, b]` holds at (p, c) the column's entry p, whatever the column c. These are the forms a
  sum kept as a column (one number per row) takes when it is added back to a matrix row by row.
-/
import Idealize.ShloMosaic.Lib.Pipeline.Value
import Idealize.ShloMosaic.Lib.ValueIdx

namespace Cert.ColumnLayout

open Idealize.ShloMosaic Idealize.ShloMosaic.ValueIdx

variable {α : Type}

/-- An `[a]` array cast to `[a, 1]` reads, at `(i, u)`, the operand at `i`, whatever the unit coordinate `u`: both
    sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry `p`: the row coordinate is kept
    (or is 0 when there is one row), the unit axis is read at 0. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.ColumnLayout
-- ==== Proof.KernelPayload.lean ====
/-
  The kernel body's stored value at one element of a block.

  A block has 5000 rows.  Row p of the stored value is computed from row p of the node-feature block (64 columns)
  and row p of the aggregate block (65 columns: 64 sums and, last, the count): the 64 sums are divided by the larger
  of the count and one, the node features and these quotients are joined into 128 features, multiplied into the
  128 x 128 weight block, the bias row is added and negative values are replaced by zero.  Rounding the product's
  operands to a narrower format changes nothing on exact values.
-/
import proofs.«103040_j352187318566_2_alg».proof.Proof.Gen.KernelIdeal.Skeleton
import proofs.«103040_j352187318566_2_alg».proof.Proof.Spec
import proofs.«103040_j352187318566_2_alg».proof.Proof.LibColumnLayout
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx
open Cert.NeighbourMean

/-- The product's dimension numbers: rows times columns, the contraction over the left operand's columns. -/
abbrev D : DotDims S5000x128 S128x128 S5000x128 := dot_S5000x128_S128x128_S5000x128_1_0_0_1_n_n

theorem lhs_0 (i : S5000x128.Idx) (q : D.contr.Idx) : (D.lhsIdx i q 0).val = (i 0).val := by
  unfold DotDims.lhsIdx
  rw [dif_neg (show ¬(0 : Fin S5000x128.rank) ∈ D.lhsBatch by decide), dif_pos (show (0 : Fin S5000x128.rank) ∈ D.lhsNonContracting by decide)]
  rfl
theorem lhs_1 (i : S5000x128.Idx) (q : D.contr.Idx) : (D.lhsIdx i q 1).val = (q ⟨0, by decide⟩).val :=
  D.lhsIdx_val_of_single rfl i q
theorem rhs_0 (i : S5000x128.Idx) (q : D.contr.Idx) : (D.rhsIdx i q 0).val = (q ⟨0, by decide⟩).val :=
  D.rhsIdx_val_of_single rfl i q
theorem rhs_1 (i : S5000x128.Idx) (q : D.contr.Idx) : (D.rhsIdx i q 1).val = (i 1).val := by
  unfold DotDims.rhsIdx
  rw [dif_neg (show ¬(1 : Fin S128x128.rank) ∈ D.rhsBatch by decide), dif_pos (show (1 : Fin S128x128.rank) ∈ D.rhsNonContracting by decide)]
  rfl

/-- The product into a zero accumulator at `(p, q)`: row `p` of the left operand against column `q` of the right. -/
theorem product_apply (l : FVec Ideal S5000x128 .bf16) (r : FVec Ideal S128x128 .bf16) (p : Fin 5000) (q : Fin 128) :
    matmul D none l r (constant S5000x128 .f32 0x00000000#32) (ix2 p q) = ∑ k : Fin 128, l (ix2 p k) * r (ix2 k q) := by
  simp only [matmul]
  rw [Ideal.matmul_constant_zero_apply, ← Equiv.sum_comp (ValueIdx.contrEquiv1 D 128 rfl rfl).symm]
  refine Finset.sum_congr rfl fun k _ => ?_
  have hk := ValueIdx.contrEquiv1_symm_val D 128 rfl rfl k
  have el : D.lhsIdx (ix2 p q) ((ValueIdx.contrEquiv1 D 128 rfl rfl).symm k) = ix2 p k := funext fun a => Fin.ext (by
    match a with
    | ⟨0, _⟩ => exact lhs_0 _ _
    | ⟨1, _⟩ => exact (lhs_1 _ _).trans hk)
  have er : D.rhsIdx (ix2 p q) ((ValueIdx.contrEquiv1 D 128 rfl rfl).symm k) = ix2 k q := funext fun a => Fin.ext (by
    match a with
    | ⟨0, _⟩ => exact (rhs_0 _ _).trans hk
    | ⟨1, _⟩ => exact rhs_1 _ _)
  rw [el, er]

/-- Feature `k` of row `p` as the body joins it: the node-feature block's for `k < 64`, else the aggregate block's
    column `k - 64` over the larger of its last column and one. -/
def blockFeature (xn : FVec Ideal S5000x64 .f32) (xa : FVec Ideal S5000x65 .f32) (p : Fin 5000) (k : Fin 128) : EReal :=
  if h : k.val < 64 then xn (ix2 p (⟨k.val, h⟩ : Fin 64))
  else Ideal.div (xa (ix2 p (⟨k.val - 64, by have := k.isLt; omega⟩ : Fin 65)))
    (max (xa (ix2 p (⟨64, by decide⟩ : Fin 65))) oneW)

/-- The body's joined features, as the body spells them. -/
def joined (xn : FVec Ideal S5000x64 .f32) (xa : FVec Ideal S5000x65 .f32) : FVec Ideal S5000x128 .f32 :=
  concatenate S5000x128 1 [⟨S5000x64, shapeCast S5000x64 xn shapeCasts_S5000x64_S5000x64⟩,
    ⟨S5000x64, divf (extractStridedSlice S5000x64 ![0, 0] (shapeCast S5000x65 xa shapeCasts_S5000x65_S5000x65) slices_S5000x65_o0_0_S5000x64)
      (broadcastTo S5000x64 (maximumf (extractStridedSlice S5000x1 ![0, 64] (shapeCast S5000x65 xa shapeCasts_S5000x65_S5000x65) slices_S5000x65_o0_64_S5000x1)
        (broadcast S5000x1 (Scalar.ofBits (F := Ideal) .f32 0x3F800000#32))) broadcasts_S5000x1_S5000x64)⟩]
    concatenates_S5000x64_S5000x64_S5000x128_d1

/-- The quotient part at `(p, c)`. -/
theorem mean_apply (xa : FVec Ideal S5000x65 .f32) (p : Fin 5000) (c : Fin 64) :
    divf (extractStridedSlice S5000x64 ![0, 0] (shapeCast S5000x65 xa shapeCasts_S5000x65_S5000x65) slices_S5000x65_o0_0_S5000x64)
      (broadcastTo S5000x64 (maximumf (extractStridedSlice S5000x1 ![0, 64] (shapeCast S5000x65 xa shapeCasts_S5000x65_S5000x65) slices_S5000x65_o0_64_S5000x1)
        (broadcast S5000x1 (Scalar.ofBits (F := Ideal) .f32 0x3F800000#32))) broadcasts_S5000x1_S5000x64) (ix2 p c)
    = Ideal.div (xa (ix2 p (⟨c.val, by have := c.isLt; omega⟩ : Fin 65))) (max (xa (ix2 p (⟨64, by decide⟩ : Fin 65))) oneW) := by
  rw [divf_apply, shapeCast_self, Cert.ColumnLayout.broadcastTo_a1_ab_apply, maximumf_apply, broadcast_apply]
  rw [slice2_axis1_apply 0 xa slices_S5000x65_o0_0_S5000x64 p c (⟨c.val, by have := c.isLt; omega⟩ : Fin 65) (by simp)]
  rw [slice2_axis1_apply 64 xa slices_S5000x65_o0_64_S5000x1 p (0 : Fin 1) (⟨64, by decide⟩ : Fin 65) (by simp)]
  rfl

theorem joined_apply (xn : FVec Ideal S5000x64 .f32) (xa : FVec Ideal S5000x65 .f32) (p : Fin 5000) (k : Fin 128) :
    joined xn xa (ix2 p k) = blockFeature xn xa p k := by
  unfold joined blockFeature
  by_cases h : k.val < 64
  · rw [dif_pos h]
    refine (concatenate_pair_apply_left (s₁ := S5000x64) (s₂ := S5000x64) (1 : Fin 2) _ _ concatenates_S5000x64_S5000x64_S5000x128_d1 (ix2 p k) rfl
      (ix2 p (⟨k.val, h⟩ : Fin 64)) (fun b => match b with | ⟨0, _⟩ => rfl | ⟨1, _⟩ => rfl)).trans ?_
    rw [shapeCast_self]
  · rw [dif_neg h]
    refine (concatenate_pair_apply_right (s₁ := S5000x64) (s₂ := S5000x64) (1 : Fin 2) _ _ concatenates_S5000x64_S5000x64_S5000x128_d1 (ix2 p k) rfl rfl
      (ix2 p (⟨k.val - 64, by have := k.isLt; omega⟩ : Fin 64))
      (fun b => match b with
        | ⟨0, _⟩ => fun _ => rfl
        | ⟨1, _⟩ => fun hb => absurd rfl hb)
      (by show (k.val - 64) + 64 = k.val; omega)).trans ?_
    exact mean_apply xa p _

/-- The stored value at `(p, q)`. -/
theorem payload_apply (v0 : FVec Ideal S5000x65 .f32) (v8 : FVec Ideal S5000x64 .f32) (v12 : FVec Ideal S128x128 .f32)
    (v16 : FVec Ideal S128 .f32) (p : Fin 5000) (q : Fin 128) :
    k0_pay1 (F := Ideal) v0 v8 v12 v16 (ix2 p q)
      = max ((∑ k : Fin 128, blockFeature v8 v0 p k * v12 (ix2 k q)) + v16 (ix1 q)) zeroW := by
  show max (matmul D none (truncf .bf16 (joined v8 v0) bitsLt_bf16_f32)
        (truncf .bf16 (shapeCast S128x128 v12 shapeCasts_S128x128_S128x128) bitsLt_bf16_f32)
        (constant S5000x128 .f32 0x00000000#32) (ix2 p q)
      + broadcastTo S5000x128 (shapeCast S1x128 v16 shapeCasts_S128_S1x128) broadcasts_S1x128_S5000x128 (ix2 p q))
    (Ideal.ofBits .f32 0x00000000#32) = _
  rw [product_apply, broadcastTo_1b_ab_apply, shapeCast_a_1a_apply]
  simp only [truncf_apply, joined_apply, shapeCast_self]

/-- A row of the stored value is the specification's output row, once the blocks' rows are known to be the rows of
    the node features, of the aggregates and degrees, of the transposed weights and of the bias. -/
theorem row_eq (xn : FVec Ideal S5000x64 .f32) (xa : FVec Ideal S5000x65 .f32) (xw : FVec Ideal S128x128 .f32)
    (xb : FVec Ideal S128 .f32)
    (nf : (⟨3, ![100000, 1, 64]⟩ : Shape).Idx → EReal) (ef : (⟨3, ![1600000, 1, 64]⟩ : Shape).Idx → EReal)
    (nw : (⟨1, ![1600000]⟩ : Shape).Idx → EReal) (dst : (⟨1, ![1600000]⟩ : Shape).Idx → BitVec 32)
    (W : (⟨2, ![128, 128]⟩ : Shape).Idx → EReal) (b : (⟨1, ![128]⟩ : Shape).Idx → EReal)
    (r : Fin 100000) (p : Fin 5000) (q : Fin 128)
    (hn : ∀ k : Fin 64, xn (ix2 p k) = nf (ix3 r (0 : Fin 1) k))
    (ha : ∀ c : Fin 64, xa (ix2 p (⟨c.val, by have := c.isLt; omega⟩ : Fin 65)) = aggregate ef nw dst r c)
    (hc : xa (ix2 p (⟨64, by decide⟩ : Fin 65)) = degree dst r)
    (hw : ∀ k : Fin 128, xw (ix2 k q) = W (ix2 q k))
    (hb : xb (ix1 q) = b (ix1 q)) :
    max ((∑ k : Fin 128, blockFeature xn xa p k * xw (ix2 k q)) + xb (ix1 q)) zeroW = output nf ef nw dst W b r q := by
  unfold output
  refine congrArg₂ max (congrArg₂ (· + ·) (Finset.sum_congr rfl fun k _ => ?_) hb) rfl
  rw [hw k]
  refine congrArg (· * W (ix2 q k)) ?_
  unfold blockFeature feature
  by_cases h : k.val < 64
  · rw [dif_pos h, dif_pos h]
    exact hn _
  · rw [dif_neg h, dif_neg h]
    unfold neighbour
    exact congrArg₂ Ideal.div (ha (⟨k.val - 64, by have := k.isLt; omega⟩ : Fin 64)) (congrArg (max · oneW) hc)

end Cert.KernelIdeal.Body

end
-- ==== Proof.KernelValue.lean ====
/-
  The kernel program's result, read off its run.

  The launch has twenty points; point t computes rows 5000 t … 5000 t + 4999 of a [100000, 128] matrix from the same
  rows of the node-feature matrix and of the aggregate matrix, the whole transposed weight matrix and the whole
  bias.  Every row of the output matrix lies in exactly one point's block, so after the launch the matrix holds the
  specification's values; the reshape after the launch only adds a unit axis.
-/
import proofs.«103040_j352187318566_2_alg».proof.Proof.KernelEntry
import proofs.«103040_j352187318566_2_alg».proof.Proof.KernelPayload
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Combine

open Cert.KernelIdeal Cert.KernelIdeal.Gen Cert.KernelIdeal.Entry Cert.KernelIdeal.Body Cert.NeighbourMean

variable (m : (ℓ : Loc nD τ sig) → Buf (Elt Ideal) ℓ) (ρ : Dev nD → PrngReg)

theorem hz : (![0, 0] : Fin 2 → Nat) = fun _ => 0 := funext fun a => by fin_cases a <;> rfl
theorem hz1 : (![0] : Fin 1 → Nat) = fun _ => 0 := funext fun a => by fin_cases a <;> rfl

/-- The specification's matrix of the arguments as launched. -/
abbrev outMatrix (c : Dev nD) : S100000x128.Idx → EReal :=
  resultMatrix (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The specification's result of the arguments as launched. -/
abbrev outResult (c : Dev nD) : S100000x1x128.Idx → EReal :=
  result (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The block indices at a point: the two row-blocked inputs move with the output's rows; the weights and the bias
    are read whole; there are twenty row blocks. -/
theorem idx_facts : ∀ t : Fin cfg0.N, win0_0.index t (0 : Fin 2) = win0_4.index t (0 : Fin 2)
    ∧ win0_0.index t (1 : Fin 2) = 0
    ∧ win0_1.index t (0 : Fin 2) = win0_4.index t (0 : Fin 2)
    ∧ win0_1.index t (1 : Fin 2) = 0
    ∧ win0_2.index t (0 : Fin 2) = 0
    ∧ win0_2.index t (1 : Fin 2) = 0
    ∧ win0_3.index t (0 : Fin 1) = 0
    ∧ win0_4.index t (1 : Fin 2) = 0
    ∧ win0_4.index t (0 : Fin 2) ≤ 19 :=
  (by decide +kernel : ∀ t : Fin grid0.N, _)

/-- Every row block is some point's. -/
theorem idx_onto : ∀ (q0 : Fin 20), ∃ t : Fin cfg0.N, win0_4.index t = ![q0.val, 0] :=
  (by decide +kernel : ∀ (q0 : Fin 20), ∃ t : Fin grid0.N, win0_4.index t = ![q0.val, 0])

/-- Row `p` of the node-feature block at point `t` is row `r` of the node features, `r` the block's first row plus `p`. -/
theorem read0 (c : Dev nD) (t : Fin cfg0.N) (p : Fin 5000) (k : Fin 64) (r : Fin 100000)
    (hr : r.val = win0_4.index t (0 : Fin 2) * 5000 + p.val) :
    (iblk m c 0 t : Vec Ideal S5000x64 .f32) (ix2 p k) = m ((c : Thread nD τ).loc main_arg0) (ix3 r (0 : Fin 1) k) := by
  obtain ⟨e0, e1, -⟩ := idx_facts t
  have e : ((cfg0.win 0).blk t).view.emb (ix2 p k) = (ix2 r k : S100000x64.Idx) := by
    funext a; apply Fin.ext
    match a with
    | ⟨0, _⟩ => show win0_0.index t (0 : Fin 2) * 5000 + 1 * p.val = r.val; omega
    | ⟨1, _⟩ => show win0_0.index t (1 : Fin 2) * 64 + 1 * k.val = k.val; omega
  show V m c main_v0 (((cfg0.win 0).blk t).view.emb (ix2 p k)) = _
  rw [e, V_nodeRows, nodeRows_apply]

/-- Row `p` of the aggregate block at point `t` is row `r` of the aggregate matrix. -/
theorem read1 (c : Dev nD) (t : Fin cfg0.N) (p : Fin 5000) (k : Fin 65) (r : Fin 100000)
    (hr : r.val = win0_4.index t (0 : Fin 2) * 5000 + p.val) :
    (iblk m c 1 t : Vec Ideal S5000x65 .f32) (ix2 p k)
      = scattered (m ((c : Thread nD τ).loc main_arg1)) (m ((c : Thread nD τ).loc main_arg2)) (m ((c : Thread nD τ).loc main_arg3)) (ix2 r k) := by
  obtain ⟨-, -, e2, e3, -⟩ := idx_facts t
  have e : ((cfg0.win 1).blk t).view.emb (ix2 p k) = (ix2 r k : S100000x65.Idx) := by
    funext a; apply Fin.ext
    match a with
    | ⟨0, _⟩ => show win0_1.index t (0 : Fin 2) * 5000 + 1 * p.val = r.val; omega
    | ⟨1, _⟩ => show win0_1.index t (1 : Fin 2) * 65 + 1 * k.val = k.val; omega
  unfold iblk
  rw [View.read_apply, V_scattered_window, e]
  exact cast_eq _ _

/-- The weight block at any point is the whole transposed weight matrix. -/
theorem read2 (c : Dev nD) (t : Fin cfg0.N) (k q : Fin 128) :
    (iblk m c 2 t : Vec Ideal S128x128 .f32) (ix2 k q) = m ((c : Thread nD τ).loc main_arg4) (ix2 q k) := by
  obtain ⟨-, -, -, -, e4, e5, -⟩ := idx_facts t
  have e : ((cfg0.win 2).blk t).view.emb (ix2 k q) = (ix2 k q : S128x128.Idx) := by
    funext a; apply Fin.ext
    match a with
    | ⟨0, _⟩ => show win0_2.index t (0 : Fin 2) * 128 + 1 * k.val = k.val; omega
    | ⟨1, _⟩ => show win0_2.index t (1 : Fin 2) * 128 + 1 * q.val = q.val; omega
  show V m c main_v10 (((cfg0.win 2).blk t).view.emb (ix2 k q)) = _
  rw [e, V_weightT, weightT_apply]

/-- The bias block at any point is the whole bias. -/
theorem read3 (c : Dev nD) (t : Fin cfg0.N) (q : Fin 128) :
    (iblk m c 3 t : Vec Ideal S128 .f32) (ix1 q) = m ((c : Thread nD τ).loc main_arg5) (ix1 q) := by
  obtain ⟨-, -, -, -, -, -, e6, -⟩ := idx_facts t
  have e : ((cfg0.win 3).blk t).view.emb (ix1 q) = (ix1 q : S128.Idx) := by
    funext a; apply Fin.ext
    match a with
    | ⟨0, _⟩ => show win0_3.index t (0 : Fin 1) * 128 + 1 * q.val = q.val; omega
  show V m c main_arg5 (((cfg0.win 3).blk t).view.emb (ix1 q)) = _
  rw [e, V_main_arg5]

/-- What point `t` writes back is its block of the specification's matrix. -/
theorem flushed_eq (c : Dev nD) (t : Fin cfg0.N) :
    (dats m 0 c).flushed 4 t = ((cfg0.win 4).blk t).view.read (Elt Ideal) (outMatrix m c) := by
  show (cfg0.win 4).cut (grid0.coords t) ((dats m 0 c).after 4 t) = _
  rw [after0_4]
  unfold out0_4
  rw [View.canon_unit_zero hz]
  simp only [View.ld_unit_zero (S := S5000x65) hz, View.ld_unit_zero (S := S5000x64) hz, View.ld_unit_zero (S := S128x128) hz,
    View.ld_unit_zero (S := S128) hz1]
  funext j
  obtain ⟨p, q, rfl⟩ : ∃ (p : Fin 5000) (q : Fin 128), j = ix2 p q := ⟨j 0, j 1, eq_ix2 j⟩
  obtain ⟨-, -, -, -, -, -, -, e7, e8⟩ := idx_facts t
  have hr : win0_4.index t (0 : Fin 2) * 5000 + p.val < 100000 := by have := p.isLt; omega
  have e : ((cfg0.win 4).blk t).view.emb (ix2 p q)
      = (ix2 (⟨win0_4.index t (0 : Fin 2) * 5000 + p.val, hr⟩ : Fin 100000) q : S100000x128.Idx) := by
    funext a; apply Fin.ext
    match a with
    | ⟨0, _⟩ => show win0_4.index t (0 : Fin 2) * 5000 + 1 * p.val = win0_4.index t (0 : Fin 2) * 5000 + p.val; omega
    | ⟨1, _⟩ => show win0_4.index t (1 : Fin 2) * 128 + 1 * q.val = q.val; omega
  show k0_pay1 (F := Ideal) (iblk m c 1 t) (iblk m c 0 t) (iblk m c 2 t) (iblk m c 3 t) (ix2 p q)
    = outMatrix m c (((cfg0.win 4).blk t).view.emb (ix2 p q))
  rw [e]
  refine (payload_apply (iblk m c 1 t) (iblk m c 0 t) (iblk m c 2 t) (iblk m c 3 t) p q).trans ?_
  exact row_eq (iblk m c 0 t) (iblk m c 1 t) (iblk m c 2 t) (iblk m c 3 t)
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (⟨win0_4.index t (0 : Fin 2) * 5000 + p.val, hr⟩ : Fin 100000) p q
    (fun k => read0 m c t p k _ rfl)
    (fun k => (read1 m c t p _ _ rfl).trans (scattered_feature _ _ _ _ k))
    ((read1 m c t p _ _ rfl).trans (scattered_count _ _ _ _))
    (fun k => read2 m c t k q)
    (read3 m c t q)

/-- An index of the matrix is in point `t`'s block iff each coordinate is in the block's range on its axis. -/
theorem mem_blk (t : Fin cfg0.N) (i : S100000x128.Idx) :
    i ∈ ((cfg0.win 4).blk t).view.set ↔ ∀ a : Fin 2, win0_4.index t a * S5000x128.size a ≤ (i a).val
      ∧ (i a).val < win0_4.index t a * S5000x128.size a + S5000x128.size a := by
  show i ∈ ((View.whole main_v11).slice (win0_4.rect t)).set ↔ _
  rw [View.set_slice_whole, Rect.mem_set_unit]
  exact Iff.rfl

/-- Every index of the matrix is in the block of the point that owns its row. -/
theorem cover (i : S100000x128.Idx) :
    ∃ t : Fin cfg0.N, (cfg0.win 4).flush t = true ∧ i ∈ ((cfg0.win 4).blk t).view.set := by
  have hi0 : (i 0).val < 100000 := (i 0).isLt
  have hi1 : (i 1).val < 128 := (i 1).isLt
  obtain ⟨t, ht⟩ := idx_onto ⟨(i 0).val / 5000, by omega⟩
  have q0 : win0_4.index t (0 : Fin 2) = (i 0).val / 5000 := congrFun ht 0
  have q1 : win0_4.index t (1 : Fin 2) = 0 := congrFun ht 1
  refine ⟨t, flush0_4 t, ?_⟩
  rw [mem_blk]
  intro a
  match a with
  | ⟨0, _⟩ => show win0_4.index t (0 : Fin 2) * 5000 ≤ (i 0).val ∧ (i 0).val < win0_4.index t (0 : Fin 2) * 5000 + 5000; omega
  | ⟨1, _⟩ => show win0_4.index t (1 : Fin 2) * 128 ≤ (i 1).val ∧ (i 1).val < win0_4.index t (1 : Fin 2) * 128 + 128; omega

/-- The output matrix after the launch is the specification's. -/
theorem final (c : Dev nD) : (dats m 0 c).arrAt 4 cfg0.N = outMatrix m c :=
  (dats m 0 c).arrAt_eq_of_cover 4 (outMatrix m c) (fun t _ => flushed_eq m c t) cover

/-- The program's result, the matrix with a unit axis added, is the specification's result. -/
theorem tail_eq (c : Dev nD) :
    Pipeline.afterTail₀ cfgs (dats m) 0 (V0 m) [hostOps1] c main_v12 = outResult m c := by
  unfold Pipeline.afterTail₀
  show StableHlo.after hostOps1 _ (Proc.devRef .tc main_v12) = _
  after_results
  have hA : Pipeline.withArrays (cfgs 0).spec c (V0 m c) (fun w => (dats m 0 c).arrAt w (cfgs 0).N) (Proc.devRef .tc main_v11)
      = outMatrix m c :=
    (Pipeline.withArrays_arr spec0 launch0.win.arr_inj c _ _ 4).trans (final m c)
  funext i
  obtain ⟨n, u, o, rfl⟩ : ∃ (n : Fin 100000) (u : Fin 1) (o : Fin 128), i = ix3 n u o := ⟨i 0, i 1, i 2, eq_ix3 i⟩
  show shapeCast S100000x1x128 (Pipeline.withArrays (cfgs 0).spec c (V0 m c) (fun w => (dats m 0 c).arrAt w (cfgs 0).N)
    (Proc.devRef .tc main_v11)) shapeCasts_S100000x128_S100000x1x128 (ix3 n u o) = _
  rw [hA]
  refine (shapeCast_apply (outMatrix m c) shapeCasts_S100000x128_S100000x1x128 (ix3 n u o) (ix2 n o) ?_).trans ?_
  · rw [Shape.rowMajor_val_three, Shape.rowMajor_val_two]
    show n.val * 128 + o.val = (n.val * 1 + u.val) * 128 + o.val
    have := u.isLt
    omega
  · rfl

/-- The run, read: the result at the specification's value of the arguments, the arguments unchanged. -/
theorem run : θ_run defs (onTc (τ := τ) (main (F := Ideal))) ⟨m, fun _ => 0, ρ⟩ fun r => ∀ c : Dev nD,
      r.2.mem ((c.tc : Thread nD τ).loc main_v12) = outResult m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v12 (Pipeline.mem_restRefs_of main_v12 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).1 3).trans (((dats m 0 c).arrAt_in 3 rfl _).trans ((A_eq m c 3).trans (V_main_arg5 m c)))⟩)
    (run_main m ρ)

end Cert.KernelIdeal.Combine

end
-- ==== Proof.lean ====
/-
  The kernel program and the reference compute one function.

  Both scatter-add the weighted edge features and a count onto the destination nodes, divide the sums by the larger
  of the count and one, join the quotient to the node's own features, apply one linear layer and clamp at zero.  The
  kernel program scatters one matrix of 65 columns where the reference scatters the 64 feature columns and the count
  separately, and it computes the linear layer on blocks of 5000 nodes; at exact values every element of either
  result is the same sum over the node's incoming edges followed by the same operations (Proof/Spec.lean).  The
  reference's side is Proof/RefSpec.lean, the kernel program's Proof/KernelValue.lean over the element of a block
  (Proof/KernelPayload.lean) and the arrays the launch reads (Proof/KernelEntry.lean); the scatter read at an
  element is Proof/LibScatterRows.lean.  Nothing was rewritten between the kernel program and its exact reading,
  so that conjunct is trivial; the three frames are the generated ones.
-/
import proofs.«103040_j352187318566_2_alg».proof.Defs
import proofs.«103040_j352187318566_2_alg».proof.Proof.Gen.Kernel
import proofs.«103040_j352187318566_2_alg».proof.Proof.Gen.Kernel.Skeleton
import proofs.«103040_j352187318566_2_alg».proof.Proof.Gen.Kernel.Launch
import proofs.«103040_j352187318566_2_alg».proof.Proof.Gen.Kernel.Points
import proofs.«103040_j352187318566_2_alg».proof.Proof.Gen.Kernel.Frame
import proofs.«103040_j352187318566_2_alg».proof.Proof.Gen.KernelIdeal
import proofs.«103040_j352187318566_2_alg».proof.Proof.Gen.KernelIdeal.Skeleton
import proofs.«103040_j352187318566_2_alg».proof.Proof.Gen.KernelIdeal.Launch
import proofs.«103040_j352187318566_2_alg».proof.Proof.Gen.KernelIdeal.Points
import proofs.«103040_j352187318566_2_alg».proof.Proof.Gen.KernelIdeal.Frame
import proofs.«103040_j352187318566_2_alg».proof.Proof.Gen.ReferenceIdeal
import proofs.«103040_j352187318566_2_alg».proof.Proof.Gen.Pre_finite_inputs
import proofs.«103040_j352187318566_2_alg».proof.Proof.Gen.ReferenceIdeal.Run
import proofs.«103040_j352187318566_2_alg».proof.Proof.Gen.ReferenceIdeal.Read
import proofs.«103040_j352187318566_2_alg».proof.Proof.RefSpec
import proofs.«103040_j352187318566_2_alg».proof.Proof.KernelValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with its result dropped. -/
theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the specification's result of arguments that agree. -/
theorem algebraic : Cert.algebraic_KernelIdeal_ReferenceIdeal := by
  intro m ρ m' ρ' _ hagree
  refine ⟨_, Cert.KernelIdeal.Combine.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, Cert.ReferenceIdeal.RefSpec.result_eq,
    (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
